-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S9600000 : Shape := ⟨1, ![9600000]⟩
abbrev S3200000 : Shape := ⟨1, ![3200000]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S9600000 : S_.BroadcastsInDim S9600000 (![] : Fin 0 → Fin S9600000.rank)
  reducesTo_S9600000_S_d0 : S9600000.ReducesTo [0] S_

variable [Facts]

def fn {F : FTy → Type} [FloatOps F] (main_arg0 : FVec F S1 .f32) (main_arg1 : FVec F S9600000 .f32) (main_arg2 : IVec S3200000 32) (main_arg3 : IVec S3200000 32) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S9600000 .f32 := Host.absf main_arg1
  let main_cst_0 : FVec F S_ .f32 := constant S_ .f32 0x7F800000#32
  let main_v5 : FVec F S9600000 .f32 := broadcastInDim S9600000 ![] bcast_S_S9600000 main_cst_0
  let main_v6 : IVec S9600000 1 := cmpf .olt main_v4 main_v5
  let main_c_1 : IVec S_ 1 := constantI S_ 1 1#1
  let main_v7 : IVec S_ 1 := (fun x v => Host.reduce IntOp.andi x v reducesTo_S9600000_S_d0 h_S_) main_v6 main_c_1
  let main_v8 : IVec S_ 1 := andi main_v3 main_v7
  main_v8
-- ==== Kernel.lean ====
abbrev S1 : Shape := ⟨1, ![1]⟩
abbrev S9600000 : Shape := ⟨1, ![9600000]⟩
abbrev S3200000 : Shape := ⟨1, ![3200000]⟩
abbrev S6400000 : Shape := ⟨1, ![6400000]⟩
abbrev S100000x64 : Shape := ⟨2, ![100000, 64]⟩
abbrev S3200000x1 : Shape := ⟨2, ![3200000, 1]⟩
abbrev S_ : Shape := ⟨0, ![]⟩
abbrev S3200000x64 : Shape := ⟨2, ![3200000, 64]⟩
abbrev S12800x64 : Shape := ⟨2, ![12800, 64]⟩
abbrev S12800x1 : Shape := ⟨2, ![12800, 1]⟩
abbrev S10000x64 : Shape := ⟨2, ![10000, 64]⟩

abbrev nBuf : Space → Nat
  | .hbm => 27
  | .vmem => 12
  | .smem => 0
  | _ => 0

abbrev bufTy : (tb : Table) → Fin (tcTables nBuf tb) → BufTy
  | .hbm, ⟨0, _⟩ => ⟨S1, .f32⟩
  | .hbm, ⟨1, _⟩ => ⟨S9600000, .f32⟩
  | .hbm, ⟨2, _⟩ => ⟨S3200000, .i32⟩
  | .hbm, ⟨3, _⟩ => ⟨S3200000, .i32⟩
  | .hbm, ⟨4, _⟩ => ⟨S6400000, .f32⟩
  | .hbm, ⟨5, _⟩ => ⟨S100000x64, .f32⟩
  | .hbm, ⟨6, _⟩ => ⟨S3200000, .f32⟩
  | .hbm, ⟨7, _⟩ => ⟨S3200000x1, .f32⟩
  | .hbm, ⟨8, _⟩ => ⟨S_, .i32⟩
  | .hbm, ⟨9, _⟩ => ⟨S3200000, .i32⟩
  | .hbm, ⟨10, _⟩ => ⟨S3200000, .i1⟩
  | .hbm, ⟨11, _⟩ => ⟨S_, .i32⟩
  | .hbm, ⟨12, _⟩ => ⟨S3200000, .i32⟩
  | .hbm, ⟨13, _⟩ => ⟨S3200000, .i32⟩
  | .hbm, ⟨14, _⟩ => ⟨S3200000, .i32⟩
  | .hbm, ⟨15, _⟩ => ⟨S3200000x1, .i32⟩
  | .hbm, ⟨16, _⟩ => ⟨S3200000x64, .f32⟩
  | .hbm, ⟨17, _⟩ => ⟨S3200000x64, .f32⟩
  | .hbm, ⟨18, _⟩ => ⟨S_, .f32⟩
  | .hbm, ⟨19, _⟩ => ⟨S100000x64, .f32⟩
  | .hbm, ⟨20, _⟩ => ⟨S3200000x1, .i32⟩
  | .hbm, ⟨21, _⟩ => ⟨S100000x64, .f32⟩
  | .hbm, ⟨22, _⟩ => ⟨S100000x64, .f32⟩
  | .hbm, ⟨23, _⟩ => ⟨S6400000, .f32⟩
  | .hbm, ⟨24, _⟩ => ⟨S_, .f32⟩
  | .hbm, ⟨25, _⟩ => ⟨S3200000, .f32⟩
  | .hbm, ⟨26, _⟩ => ⟨S9600000, .f32⟩
  | .local _ .vmem, ⟨0, _⟩ => ⟨S12800x64, .f32⟩
  | .local _ .vmem, ⟨1, _⟩ => ⟨S12800x64, .f32⟩
  | .local _ .vmem, ⟨2, _⟩ => ⟨S12800x1, .f32⟩
  | .local _ .vmem, ⟨3, _⟩ => ⟨S12800x1, .f32⟩
  | .local _ .vmem, ⟨4, _⟩ => ⟨S12800x64, .f32⟩
  | .local _ .vmem, ⟨5, _⟩ => ⟨S12800x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12800x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12800x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S12800x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S9600000_S6400000_0 : S9600000.Slices ![0] S6400000
  shapeCasts_S6400000_S100000x64 : S6400000.ShapeCasts S100000x64
  slices_S9600000_S3200000_6400000 : S9600000.Slices ![6400000] S3200000
  shapeCasts_S3200000_S3200000x1 : S3200000.ShapeCasts S3200000x1
  bcast_S_S3200000 : S_.BroadcastsInDim S3200000 (![] : Fin 0 → Fin S3200000.rank)
  bcast_S3200000_S3200000x1_0 : S3200000.BroadcastsInDim S3200000x1 (![0] : Fin 1 → Fin S3200000x1.rank)
  inb_S12800x64_S12800x64_0_0 : ∀ a, (![0, 0] : Fin 2 → Nat) a + S12800x64.size a ≤ S12800x64.size a
  h_S12800x64 : 0 < S12800x64.numel
  shapeCasts_S12800x64_S12800x64 : S12800x64.ShapeCasts S12800x64
  inb_S12800x1_S12800x1_0_0 : ∀ a, (![0, 0] : Fin 2 → Nat) a + S12800x1.size a ≤ S12800x1.size a
  h_S12800x1 : 0 < S12800x1.numel
  shapeCasts_S12800x1_S12800x1 : S12800x1.ShapeCasts S12800x1
  broadcasts_S12800x1_S12800x64 : S12800x1.Broadcasts S12800x64
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  shapeCasts_S100000x64_S6400000 : S100000x64.ShapeCasts S6400000
  concatenates_S6400000_S3200000_S9600000_d0 : Shape.Concatenates [S6400000, S3200000] S9600000 0
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12800x64.size a ≤ S3200000x64.size a
  hwx0_0 : ∀ i : grid0.Coords, EltTy.bits .f32 = 32 ∨ (Rect.block (s := S3200000x64) S12800x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12800x1.size a ≤ S3200000x1.size a
  hwx0_1 : ∀ i : grid0.Coords, EltTy.bits .f32 = 32 ∨ (Rect.block (s := S3200000x1) S12800x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S12800x64.size a ≤ S3200000x64.size a
  hwx0_2 : ∀ i : grid0.Coords, EltTy.bits .f32 = 32 ∨ (Rect.block (s := S3200000x64) S12800x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

abbrev win0_0 : Pipeline.Window sig grid0 :=
  Pipeline.Window.ofSpec (Memref.whole main_v10) S12800x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S12800x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S12800x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1 : Shape := ⟨1, ![1]⟩
abbrev S9600000 : Shape := ⟨1, ![9600000]⟩
abbrev S3200000 : Shape := ⟨1, ![3200000]⟩
abbrev S6400000 : Shape := ⟨1, ![6400000]⟩
abbrev S100000x64 : Shape := ⟨2, ![100000, 64]⟩
abbrev S3200000x1 : Shape := ⟨2, ![3200000, 1]⟩
abbrev S_ : Shape := ⟨0, ![]⟩
abbrev S3200000x64 : Shape := ⟨2, ![3200000, 64]⟩

abbrev nBuf : Space → Nat
  | .hbm => 31
  | .vmem => 0
  | .smem => 0
  | _ => 0

abbrev bufTy : (tb : Table) → Fin (tcTables nBuf tb) → BufTy
  | .hbm, ⟨0, _⟩ => ⟨S1, .f32⟩
  | .hbm, ⟨1, _⟩ => ⟨S9600000, .f32⟩
  | .hbm, ⟨2, _⟩ => ⟨S3200000, .i32⟩
  | .hbm, ⟨3, _⟩ => ⟨S3200000, .i32⟩
  | .hbm, ⟨4, _⟩ => ⟨S6400000, .f32⟩
  | .hbm, ⟨5, _⟩ => ⟨S100000x64, .f32⟩
  | .hbm, ⟨6, _⟩ => ⟨S3200000, .f32⟩
  | .hbm, ⟨7, _⟩ => ⟨S3200000x1, .f32⟩
  | .hbm, ⟨8, _⟩ => ⟨S_, .i32⟩
  | .hbm, ⟨9, _⟩ => ⟨S3200000, .i32⟩
  | .hbm, ⟨10, _⟩ => ⟨S3200000, .i1⟩
  | .hbm, ⟨11, _⟩ => ⟨S_, .i32⟩
  | .hbm, ⟨12, _⟩ => ⟨S3200000, .i32⟩
  | .hbm, ⟨13, _⟩ => ⟨S3200000, .i32⟩
  | .hbm, ⟨14, _⟩ => ⟨S3200000, .i32⟩
  | .hbm, ⟨15, _⟩ => ⟨S3200000x1, .i32⟩
  | .hbm, ⟨16, _⟩ => ⟨S3200000x64, .f32⟩
  | .hbm, ⟨17, _⟩ => ⟨S3200000x64, .f32⟩
  | .hbm, ⟨18, _⟩ => ⟨S3200000x64, .f32⟩
  | .hbm, ⟨19, _⟩ => ⟨S_, .f32⟩
  | .hbm, ⟨20, _⟩ => ⟨S100000x64, .f32⟩
  | .hbm, ⟨21, _⟩ => ⟨S3200000x1, .i32⟩
  | .hbm, ⟨22, _⟩ => ⟨S100000x64, .f32⟩
  | .hbm, ⟨23, _⟩ => ⟨S_, .f32⟩
  | .hbm, ⟨24, _⟩ => ⟨S100000x64, .f32⟩
  | .hbm, ⟨25, _⟩ => ⟨S100000x64, .f32⟩
  | .hbm, ⟨26, _⟩ => ⟨S100000x64, .f32⟩
  | .hbm, ⟨27, _⟩ => ⟨S6400000, .f32⟩
  | .hbm, ⟨28, _⟩ => ⟨S_, .f32⟩
  | .hbm, ⟨29, _⟩ => ⟨S3200000, .f32⟩
  | .hbm, ⟨30, _⟩ => ⟨S9600000, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  slices_S9600000_S6400000_0 : S9600000.Slices ![0] S6400000
  shapeCasts_S6400000_S100000x64 : S6400000.ShapeCasts S100000x64
  slices_S9600000_S3200000_6400000 : S9600000.Slices ![6400000] S3200000
  shapeCasts_S3200000_S3200000x1 : S3200000.ShapeCasts S3200000x1
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S100000x64_S6400000 : S100000x64.ShapeCasts S6400000
  concatenates_S6400000_S3200000_S9600000_d0 : Shape.Concatenates [S6400000, S3200000] S9600000 0
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

class Facts : Prop extends Facts₀ where

variable [Facts]
-- ==== Proof.Pointwise.lean ====
/-
  The two pointwise maps of one message-passing step, as functions of whole arrays, index by index.

  With `E = 3200000` edges, `N = 100000` nodes and `D = 64` features:
  * `scaleRows x e` is the `[E, D]` array whose entry `(r, k)` is `x[r, k] · e[r, 0]`: every row of the gathered
    source features multiplied by that edge's one weight;
  * `damp a h` is the `[N, D]` array whose entry `(n, k)` is `a[n, k] − h[n, k] · ½`: the aggregated messages less
    half of the node's own state.
  Both are stated with the float operations left abstract, so they say the same thing at every reading of the floats.
  The host spells the first as a product with the weight column broadcast along the features, and the second as a
  difference with the state times a splat of `½`; the two lemmas at the end say those spellings are these functions.
-/
import Idealize.ShloMosaic.PureOps
import Idealize.ShloMosaic.Lib.Pipeline.Value

noncomputable section

namespace Cert.Step

open Idealize.ShloMosaic

/-- One row per edge, one column per feature. -/
abbrev Edges : Shape := ⟨2, ![3200000, 64]⟩
/-- One row per edge, a single column: the edge weights. -/
abbrev EdgeCol : Shape := ⟨2, ![3200000, 1]⟩
/-- One row per node, one column per feature. -/
abbrev Nodes : Shape := ⟨2, ![100000, 64]⟩
/-- The shape of a scalar. -/
abbrev Scal : Shape := ⟨0, ![]⟩

variable {F : FTy → Type} [FloatOps F]

/-- The weight that scales entry `i` of an `[E, D]` array: same row, the one column. -/
abbrev weightOf (i : Edges.Idx) : EdgeCol.Idx := fun a => match a with
  | ⟨0, _⟩ => ⟨(i 0).val, (i 0).isLt⟩
  | ⟨1, _⟩ => ⟨0, Nat.one_pos⟩

/-- Entry `(r, k)` is `x[r, k] · e[r, 0]`. -/
def scaleRows (x : FVec F Edges .f32) (e : FVec F EdgeCol .f32) : FVec F Edges .f32 :=
  fun i => FloatOps.mulf (x i) (e (weightOf i))

/-- Entry `(n, k)` is `a[n, k] − h[n, k] · ½` (`0x3F000000` is the f32 word of one half). -/
def damp (a h : FVec F Nodes .f32) : FVec F Nodes .f32 :=
  fun i => FloatOps.subf (a i) (FloatOps.mulf (h i) (FloatOps.ofBits .f32 0x3F000000#32))

/-- The product with the weight column broadcast along the feature axis is `scaleRows`: the broadcast reads, at
    `(r, k)`, the column's entry `(r, 0)`. -/
theorem mulf_broadcast_eq_scaleRows (h : EdgeCol.BroadcastsInDim Edges (![0, 1] : Fin 2 → Fin 2))
    (x : FVec F Edges .f32) (e : FVec F EdgeCol .f32) :
    mulf x (broadcastInDim Edges ![0, 1] h e) = scaleRows x e := by
  funext i
  show FloatOps.mulf (x i) (broadcastInDim Edges ![0, 1] h e i) = FloatOps.mulf (x i) (e (weightOf i))
  refine congrArg (FloatOps.mulf (x i)) ?_
  exact broadcastInDim_apply _ h e i (weightOf i) (fun a => match a with
    | ⟨0, _⟩ => by show (i 0).val = if (3200000 : Nat) = 1 then 0 else (i 0).val; rw [if_neg (by decide)]
    | ⟨1, _⟩ => by show 0 = if (1 : Nat) = 1 then 0 else (i 1).val; rw [if_pos rfl])

/-- The difference with the state times a splat of one half is `damp`: a broadcast scalar reads the same word at
    every index. -/
theorem subf_mulf_half_eq_damp (h : Scal.BroadcastsInDim Nodes (![] : Fin 0 → Fin 2))
    (a s : FVec F Nodes .f32) :
    subf a (mulf s (broadcastInDim Nodes ![] h (constant Scal .f32 0x3F000000#32))) = damp a s := by
  funext i
  rfl

end Cert.Step

end
-- ==== Proof.EdgeScale.lean ====
/-
  The first call: 250 row blocks of an `[E, D]` array, each block the gathered features' block with every row scaled
  by that edge's weight.

  The call's grid has 250 points; point `t` reads rows `12800·t … 12800·t + 12799` of the gathered features (64
  columns) and of the weight column (one column), and writes back the same rows of the messages. Its body broadcasts
  the weight block along the features and multiplies, entry by entry; so what point `t` writes back is block `t` of ONE
  whole-array function, `scaleRows features weights`. The 250 blocks tile the array (row `r` lies in block
  `r / 12800`), so after the call the message array IS that function, whatever the two input arrays held at entry.
-/
import proofs.«169156_j3435973837309_1_alg».proof.Proof.Gen.KernelIdeal.Frame
import proofs.«169156_j3435973837309_1_alg».proof.Proof.Pointwise
import Idealize.ShloMosaic.Lib.Pipeline.Value

noncomputable section

namespace Cert.KernelIdeal.EdgeScale

open Cert.KernelIdeal Cert.KernelIdeal.Gen Idealize.ShloMosaic Idealize.ShloMosaic.TcCoe Idealize.SL.Sem
open Idealize.ShloMosaic.Pipeline (Dat)

variable {F : FTy → Type} [FloatOps F]
-- the buffer contents when the call is entered: any
variable (V : (c : Dev nD) → (b : Ref sig .tc) → Buf (Elt F) ((c : Thread nD τ).loc b))

theorem zero_offsets : (![0, 0] : Fin 2 → Nat) = fun _ => 0 := funext fun a => by fin_cases a <;> rfl

/-- Inside a block: the weight that scales entry `j` sits in the same row of the one-column block. -/
abbrev blockWeightOf (j : S12800x64.Idx) : S12800x1.Idx := fun a => match a with
  | ⟨0, _⟩ => ⟨(j 0).val, (j 0).isLt⟩
  | ⟨1, _⟩ => ⟨0, Nat.one_pos⟩

/-- The body's stored value, entry by entry: the feature block's entry times its row's weight. -/
theorem payload_eq (x0 : Vec F S12800x64 .f32) (x1 : Vec F S12800x1 .f32) :
    k0_pay1 x0 x1 = fun j => FloatOps.mulf (x0 j) (x1 (blockWeightOf j)) := by
  unfold k0_pay1
  simp only [shapeCast_self]
  funext j
  show FloatOps.mulf (x0 j) (broadcastTo S12800x64 x1 broadcasts_S12800x1_S12800x64 j) = FloatOps.mulf (x0 j) (x1 (blockWeightOf j))
  refine congrArg (FloatOps.mulf (x0 j)) ?_
  exact broadcastTo_apply x1 broadcasts_S12800x1_S12800x64 j (blockWeightOf j) (fun a => match a with
    | ⟨0, _⟩ => by
      show (j 0).val = if (12800 : Nat) = 1 then 0 else (j 0).val
      rw [if_neg (by decide)]
    | ⟨1, _⟩ => by
      show 0 = if (1 : Nat) = 1 then 0 else (j 1).val
      rw [if_pos rfl])

/-- The three windows move together: at point `t` each is at row block `t`, column block `0`. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `scaleRows` of the two input arrays. -/
theorem flushed_eq (c : Dev nD) (t : Fin cfg0.N) :
    (dat0 V c).flushed 2 t
      = ((cfg0.win 2).blk t).view.read (Elt F) (Cert.Step.scaleRows (V c main_v10) (V c main_v3)) := by
  show (cfg0.win 2).cut (grid0.coords t) ((dat0 V c).after 2 t) = _
  rw [after0_2]
  unfold out0_2
  rw [View.canon_unit_zero zero_offsets]
  simp only [View.ld_unit_zero (S := S12800x64) zero_offsets, View.ld_unit_zero (S := S12800x1) zero_offsets]
  rw [payload_eq]
  obtain ⟨e0, e1, e2, e3, e4, e5⟩ := block_indices t
  funext j
  show FloatOps.mulf (V c main_v10 (((cfg0.win 0).blk t).view.emb j))
        (V c main_v3 (((cfg0.win 1).blk t).view.emb (blockWeightOf j)))
      = FloatOps.mulf (V c main_v10 (((cfg0.win 2).blk t).view.emb j))
        (V c main_v3 (Cert.Step.weightOf (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 12800 + 1 * (j 0).val = win0_2.index t (0 : Fin 2) * 12800 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb (blockWeightOf j) = Cert.Step.weightOf (((cfg0.win 2).blk t).view.emb j) := by
    funext a; apply Fin.ext
    match a with
    | ⟨0, _⟩ => show win0_1.index t (0 : Fin 2) * 12800 + 1 * (j 0).val = win0_2.index t (0 : Fin 2) * 12800 + 1 * (j 0).val; omega
    | ⟨1, _⟩ => show win0_1.index t (1 : Fin 2) * 1 + 1 * 0 = 0; omega
  rw [h0, h1]

/-- An index of the message array is in point `t`'s block iff each coordinate is in the block's range on its axis. -/
theorem mem_block (t : Fin cfg0.N) (i : S3200000x64.Idx) :
    i ∈ ((cfg0.win 2).blk t).view.set ↔ ∀ a : Fin 2, win0_2.index t a * S12800x64.size a ≤ (i a).val ∧ (i a).val < win0_2.index t a * S12800x64.size a + S12800x64.size a := by
  show i ∈ ((View.whole main_v11).slice (win0_2.rect t)).set ↔ _
  rw [View.set_slice_whole, Rect.mem_set_unit]
  exact Iff.rfl

/-- The 250 blocks tile the array: row `r` is in the block of point `r / 12800`, which writes back. -/
theorem covered (i : S3200000x64.Idx) :
    ∃ t : Fin cfg0.N, (cfg0.win 2).flush t = true ∧ i ∈ ((cfg0.win 2).blk t).view.set := by
  have hi0 : (i 0).val < 3200000 := (i 0).isLt
  have hi1 : (i 1).val < 64 := (i 1).isLt
  have hN : grid0.N = 250 := N_0
  have hlt : (i 0).val / 12800 < grid0.N := by rw [hN]; omega
  obtain ⟨-, -, -, -, e4, e5⟩ := block_indices ⟨(i 0).val / 12800, hlt⟩
  refine ⟨⟨(i 0).val / 12800, hlt⟩, flush0_2 _, ?_⟩
  rw [mem_block]
  intro a
  match a with
  | ⟨0, _⟩ =>
    show win0_2.index ⟨(i 0).val / 12800, hlt⟩ (0 : Fin 2) * 12800 ≤ (i 0).val ∧ (i 0).val < win0_2.index ⟨(i 0).val / 12800, hlt⟩ (0 : Fin 2) * 12800 + 12800
    rw [e4]; show (i 0).val / 12800 * 12800 ≤ (i 0).val ∧ (i 0).val < (i 0).val / 12800 * 12800 + 12800; omega
  | ⟨1, _⟩ =>
    show win0_2.index ⟨(i 0).val / 12800, hlt⟩ (1 : Fin 2) * 64 ≤ (i 1).val ∧ (i 1).val < win0_2.index ⟨(i 0).val / 12800, hlt⟩ (1 : Fin 2) * 64 + 64
    rw [e5]; omega

/-- After the call the message array is `scaleRows` of the two input arrays as the call found them. -/
theorem final (c : Dev nD) :
    (dat0 V c).arrAt 2 cfg0.N = Cert.Step.scaleRows (V c main_v10) (V c main_v3) :=
  (dat0 V c).arrAt_eq_of_cover 2 (Cert.Step.scaleRows (V c main_v10) (V c main_v3)) (fun t _ => flushed_eq V c t) covered

end Cert.KernelIdeal.EdgeScale

end
-- ==== Proof.Damp.lean ====
/-
  The second call: ten row blocks of an `[N, D]` array, each block the aggregate's block less half of the state's block.

  The call's grid has 10 points; point `t` reads rows `10000·t … 10000·t + 9999` of the aggregate and of the state,
  and writes back the same rows of the result. Its body is pointwise, so what point `t` writes back is block `t` of ONE
  whole-array function, `damp aggregate state`; and the ten blocks tile the array (row `n` lies in block `n / 10000`),
  so after the call the result array IS that function, whatever the two input arrays held when the call was entered.
-/
import proofs.«169156_j3435973837309_1_alg».proof.Proof.Gen.KernelIdeal.Frame
import proofs.«169156_j3435973837309_1_alg».proof.Proof.Pointwise
import Idealize.ShloMosaic.Lib.Pipeline.Value

noncomputable section

namespace Cert.KernelIdeal.Damp

open Cert.KernelIdeal Cert.KernelIdeal.Gen Idealize.ShloMosaic Idealize.ShloMosaic.TcCoe Idealize.SL.Sem
open Idealize.ShloMosaic.Pipeline (Dat)

variable {F : FTy → Type} [FloatOps F]
-- the buffer contents when the call is entered: any
variable (V : (c : Dev nD) → (b : Ref sig .tc) → Buf (Elt F) ((c : Thread nD τ).loc b))

theorem zero_offsets : (![0, 0] : Fin 2 → Nat) = fun _ => 0 := funext fun a => by fin_cases a <;> rfl

/-- The body's stored value, entry by entry: the first block's entry less the second's times one half. -/
theorem payload_eq (x0 x1 : Vec F S10000x64 .f32) :
    k1_pay1 x0 x1 = fun j => FloatOps.subf (x0 j) (FloatOps.mulf (x1 j) (FloatOps.ofBits .f32 0x3F000000#32)) := by
  unfold k1_pay1
  simp only [shapeCast_self]
  rfl

/-- The three windows move together: at point `t` each is at row block `t`, column block `0`. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `damp` of the two input arrays. -/
theorem flushed_eq (c : Dev nD) (t : Fin cfg1.N) :
    (dat1 V c).flushed 2 t
      = ((cfg1.win 2).blk t).view.read (Elt F) (Cert.Step.damp (V c main_v14) (V c main_v1)) := by
  show (cfg1.win 2).cut (grid1.coords t) ((dat1 V c).after 2 t) = _
  rw [after1_2]
  unfold out1_2
  rw [View.canon_unit_zero zero_offsets]
  simp only [View.ld_unit_zero (S := S10000x64) zero_offsets]
  rw [payload_eq]
  obtain ⟨e0, e1, e2, e3, e4, e5⟩ := block_indices t
  funext j
  show FloatOps.subf (V c main_v14 (((cfg1.win 0).blk t).view.emb j))
        (FloatOps.mulf (V c main_v1 (((cfg1.win 1).blk t).view.emb j)) (FloatOps.ofBits .f32 0x3F000000#32))
      = FloatOps.subf (V c main_v14 (((cfg1.win 2).blk t).view.emb j))
        (FloatOps.mulf (V c main_v1 (((cfg1.win 2).blk t).view.emb j)) (FloatOps.ofBits .f32 0x3F000000#32))
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb j = ((cfg1.win 2).blk t).view.emb j := by
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 64 + 1 * (j 1).val = win1_2.index t (1 : Fin 2) * 64 + 1 * (j 1).val; omega
  rw [h0, h1]

/-- An index of the result array is in point `t`'s block iff each coordinate is in the block's range on its axis. -/
theorem mem_block (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v15).slice (win1_2.rect t)).set ↔ _
  rw [View.set_slice_whole, Rect.mem_set_unit]
  exact Iff.rfl

/-- The ten blocks tile the array: row `n` is in the block of point `n / 10000`, which writes back. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : grid1.N = 10 := N_1
  have hlt : (i 0).val / 10000 < grid1.N := by rw [hN]; omega
  obtain ⟨-, -, -, -, e4, e5⟩ := block_indices ⟨(i 0).val / 10000, hlt⟩
  refine ⟨⟨(i 0).val / 10000, hlt⟩, flush1_2 _, ?_⟩
  rw [mem_block]
  intro a
  match a with
  | ⟨0, _⟩ =>
    show win1_2.index ⟨(i 0).val / 10000, hlt⟩ (0 : Fin 2) * 10000 ≤ (i 0).val ∧ (i 0).val < win1_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, hlt⟩ (1 : Fin 2) * 64 ≤ (i 1).val ∧ (i 1).val < win1_2.index ⟨(i 0).val / 10000, hlt⟩ (1 : Fin 2) * 64 + 64
    rw [e5]; omega

/-- After the call the result array is `damp` of the two input arrays as the call found them. -/
theorem final (c : Dev nD) :
    (dat1 V c).arrAt 2 cfg1.N = Cert.Step.damp (V c main_v14) (V c main_v1) :=
  (dat1 V c).arrAt_eq_of_cover 2 (Cert.Step.damp (V c main_v14) (V c main_v1)) (fun t _ => flushed_eq V c t) covered

end Cert.KernelIdeal.Damp

end
-- ==== Proof.Through.lean ====
/-
  The kernel's program from launch to return, with its result array named as one term of the three argument arrays
  it reads (the flat state `x`, the edge sources and the edge destinations).

  The program is five stretches: host operations (cut the node state `[N, D]` and the weight column `[E, 1]` out of
  `x`, wrap negative sources around, gather the source rows), the first call (`EdgeScale.final`: the messages are
  `scaleRows` of what it was given), host operations (scatter-add the messages into a zero `[N, D]` array at the
  destinations), the second call (`Damp.final`: the new state is `damp` of what it was given), host operations (flatten,
  and append `E` zeros). Reading the buffers back through the stretches, last to first, gives `result`: the same host
  operations applied to `scaleRows` and `damp`. The run itself is the generated frame's run over the same segments,
  read at the result buffer as well as at the arguments.
-/
import proofs.«169156_j3435973837309_1_alg».proof.Proof.Gen.KernelIdeal.Frame
import proofs.«169156_j3435973837309_1_alg».proof.Proof.EdgeScale
import proofs.«169156_j3435973837309_1_alg».proof.Proof.Damp
import Idealize.ShloMosaic.Lib.StableHlo.Run

set_option maxRecDepth 16384

noncomputable section

namespace Cert.KernelIdeal.Through

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The result as a term of the arguments -/

/-- The node state: the first `N·D` entries of `x`, as `[N, D]`. -/
def state (x : FVec F S9600000 .f32) : FVec F S100000x64 .f32 :=
  shapeCast _ (extractStridedSlice S6400000 ![0] x slices_S9600000_S6400000_0) shapeCasts_S6400000_S100000x64

/-- The edge weights: the last `E` entries of `x`, as a column `[E, 1]`. -/
def weights (x : FVec F S9600000 .f32) : FVec F S3200000x1 .f32 :=
  shapeCast _ (extractStridedSlice S3200000 ![6400000] x slices_S9600000_S3200000_6400000) shapeCasts_S3200000_S3200000x1

/-- The gather's start indices: a negative source has `N` added, then the column `[E, 1]`. -/
def starts (src : IVec S3200000 32) : IVec S3200000x1 32 :=
  broadcastInDim S3200000x1 ![0] bcast_S3200000_S3200000x1_0
    (select (cmpi .slt src (broadcastInDim S3200000 ![] bcast_S_S3200000 (constantI S_ 32 0#32)))
      (addi src (broadcastInDim S3200000 ![] bcast_S_S3200000 (constantI S_ 32 100000#32))) src)

/-- The source rows of the state, one per edge. -/
def gathered (x : FVec F S9600000 .f32) (src : IVec S3200000 32) : FVec F S3200000x64 .f32 :=
  Host.gather gather_S100000x64_S3200000x1_S3200000x64_1_0_n_n_0_1_164 (state x) (starts src)

/-- The messages summed per destination node, from zero. -/
def aggregated (x : FVec F S9600000 .f32) (src dst : IVec S3200000 32) : FVec F S100000x64 .f32 :=
  Host.scatterAdd scatter_S100000x64_S3200000x1_S3200000x64_1_0_0_1
    (broadcastInDim S100000x64 ![] bcast_S_S100000x64 (constant S_ .f32 0x00000000#32))
    (broadcastInDim S3200000x1 ![0] bcast_S3200000_S3200000x1_0 dst)
    (Cert.Step.scaleRows (gathered x src) (weights x))

/-- What the program returns: the damped aggregate flattened, followed by `E` zeros. -/
def result (x : FVec F S9600000 .f32) (src dst : IVec S3200000 32) : FVec F S9600000 .f32 :=
  concatenate S9600000 0
    [⟨S6400000, shapeCast _ (Cert.Step.damp (aggregated x src dst) (state x)) shapeCasts_S100000x64_S6400000⟩,
     ⟨S3200000, broadcastInDim S3200000 ![] bcast_S_S3200000 (constant S_ .f32 0x00000000#32)⟩]
    concatenates_S6400000_S3200000_S9600000_d0

variable (m : (ℓ : Loc nD τ sig) → Buf (Elt F) ℓ) (ρ : Dev nD → PrngReg)

/-! ## The buffers at the segment boundaries, read back to the launch memory -/

/-- The first call is entered with the gathered source rows in its first input array, -/
theorem entry_gathered (c : Dev nD) :
    V1 m ρ c main_v10 = gathered (m ((c : Thread nD τ).loc main_arg1)) (m ((c : Thread nD τ).loc main_arg2)) := by
  show StableHlo.after hostOps0 (W0 m ρ c) (Proc.devRef .tc main_v10) = _
  unfold gathered state starts
  after_results <;> rfl

/-- and the weight column in its second. -/
theorem entry_weights (c : Dev nD) :
    V1 m ρ c main_v3 = weights (m ((c : Thread nD τ).loc main_arg1)) := by
  show StableHlo.after hostOps0 (W0 m ρ c) (Proc.devRef .tc main_v3) = _
  unfold weights
  after_results <;> rfl

/-- It leaves the messages: each gathered row scaled by its edge's weight. -/
theorem messages (c : Dev nD) :
    W2 m ρ c (Proc.devRef .tc main_v11)
      = Cert.Step.scaleRows (gathered (m ((c : Thread nD τ).loc main_arg1)) (m ((c : Thread nD τ).loc main_arg2)))
          (weights (m ((c : Thread nD τ).loc main_arg1))) := by
  refine (W2_arr m ρ c 2).trans ?_
  rw [EdgeScale.final (V1 m ρ) c, entry_gathered, entry_weights]

/-- The first call leaves the node state where the host put it, -/
theorem state_after_call0 (c : Dev nD) :
    W2 m ρ c (Proc.devRef .tc main_v1) = state (m ((c : Thread nD τ).loc main_arg1)) := by
  refine (W2_of_ne m ρ c main_v1 (by decide)).trans ?_
  show StableHlo.after hostOps0 (W0 m ρ c) (Proc.devRef .tc main_v1) = _
  unfold state
  after_results <;> rfl

/-- and the destinations as launched. -/
theorem dst_after_call0 (c : Dev nD) :
    W2 m ρ c (Proc.devRef .tc main_arg3) = m ((c : Thread nD τ).loc main_arg3) := by
  refine (W2_of_ne m ρ c main_arg3 (by decide)).trans ?_
  show StableHlo.after hostOps0 (W0 m ρ c) (Proc.devRef .tc main_arg3) = _
  after_results <;> rfl

/-- The second call is entered with the aggregated messages in its first input array, -/
theorem entry_aggregated (c : Dev nD) :
    V3 m ρ c main_v14 = aggregated (m ((c : Thread nD τ).loc main_arg1)) (m ((c : Thread nD τ).loc main_arg2))
      (m ((c : Thread nD τ).loc main_arg3)) := by
  show StableHlo.after hostOps1 (W2 m ρ c) (Proc.devRef .tc main_v14) = _
  unfold aggregated
  after_results
  rw [messages, dst_after_call0]

/-- and the node state in its second. -/
theorem entry_state (c : Dev nD) :
    V3 m ρ c main_v1 = state (m ((c : Thread nD τ).loc main_arg1)) := by
  show StableHlo.after hostOps1 (W2 m ρ c) (Proc.devRef .tc main_v1) = _
  after_results
  exact state_after_call0 m ρ c

/-- It leaves the damped aggregate. -/
theorem damped (c : Dev nD) :
    W4 m ρ c (Proc.devRef .tc main_v15)
      = Cert.Step.damp (aggregated (m ((c : Thread nD τ).loc main_arg1)) (m ((c : Thread nD τ).loc main_arg2))
          (m ((c : Thread nD τ).loc main_arg3))) (state (m ((c : Thread nD τ).loc main_arg1))) := by
  refine (W4_arr m ρ c 2).trans ?_
  rw [Damp.final (V3 m ρ) c, entry_aggregated, entry_state]

/-- So the result buffer ends at `result` of the arguments. -/
theorem returned (c : Dev nD) :
    W5 m ρ c (Proc.devRef .tc main_v18)
      = result (m ((c : Thread nD τ).loc main_arg1)) (m ((c : Thread nD τ).loc main_arg2)) (m ((c : Thread nD τ).loc main_arg3)) := by
  show StableHlo.after hostOps2 (W4 m ρ c) (Proc.devRef .tc main_v18) = _
  unfold result
  after_results
  rw [damped]
  rfl

/-! ## The run -/

-- the launch theorem's implicit arguments are found by unifying its conclusion with this one, which takes unfolding
-- plain definitions in a metavariable's type
set_option backward.isDefEq.respectTransparency.types false in
/-- From any memory with zero counters every weakly fair execution of the program terminates, nothing faulting, with
    the result buffer at `result` of the argument arrays and the argument arrays as launched: the generated frame's
    launch over the same segments, its last thread state read at the result buffer too. -/
theorem run : θ_run defs (onTc (τ := τ) (main (F := F))) ⟨m, fun _ => 0, ρ⟩ (fun r => ∀ c : Dev nD,
      r.2.mem ((c.tc : Thread nD τ).loc main_v18)
        = result (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨(h c _ (mem_uc main_v18 (by decide))).trans (returned m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.Through

end
-- ==== Proof.lean ====
/-
  One message-passing step of a graph network, `h' = segment_sum(h[src] · e, dst) − ½·h`, on `N = 100000` nodes with
  `D = 64` features and `E = 3200000` weighted edges, the node state and the edge weights packed in one flat vector.

  The kernel's program leaves the gather of the source rows and the scatter-add into the destination rows to the host
  and does the two pointwise stages in two tiled calls: the messages `h[src][r, k] · e[r]` over 250 row blocks, and the
  update `agg[n, k] − h[n, k] · ½` over 10 row blocks. The reference does the same two stages as whole-array host
  operations. Nothing is regrouped: every float operation of one program is the same operation of the other, on the same
  operands, so the two results are equal whatever the float operations mean, and in particular on the extended reals —
  the inputs' finiteness is not used.

  The proof: each call's output array is one whole-array pointwise function of its input arrays (`Proof/EdgeScale.lean`,
  `Proof/Damp.lean`: what a grid point writes back is a block of that function, and the blocks tile the array); the
  kernel's run, read back through the host stretches, ends at one term of the arguments (`Proof/Through.lean`); the
  reference's run ends at the same term once its broadcast-and-multiply and its multiply-by-a-splat-and-subtract are
  recognised as those pointwise functions (`Proof/Pointwise.lean`). The ideal pass rewrote nothing, so `preserves` is
  trivial; the frames are the generated ones, the reference's its generated run with the result dropped.
-/
import proofs.«169156_j3435973837309_1_alg».proof.Defs
import proofs.«169156_j3435973837309_1_alg».proof.Proof.Gen.Kernel
import proofs.«169156_j3435973837309_1_alg».proof.Proof.Gen.Kernel.Frame
import proofs.«169156_j3435973837309_1_alg».proof.Proof.Gen.KernelIdeal
import proofs.«169156_j3435973837309_1_alg».proof.Proof.Gen.KernelIdeal.Frame
import proofs.«169156_j3435973837309_1_alg».proof.Proof.Gen.ReferenceIdeal
import proofs.«169156_j3435973837309_1_alg».proof.Proof.Gen.Pre_finite_inputs
import proofs.«169156_j3435973837309_1_alg».proof.Proof.Gen.ReferenceIdeal.Run
import proofs.«169156_j3435973837309_1_alg».proof.Proof.Pointwise
import proofs.«169156_j3435973837309_1_alg».proof.Proof.Through

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with their result at `Through.result` of the flat state, the sources and the destinations: the
    kernel's by its run, the reference's because its term is that term with the two pointwise stages spelt as host
    operations. -/
theorem algebraic : Cert.algebraic_KernelIdeal_ReferenceIdeal := by
  intro m ρ m' ρ' _ hagree
  refine ⟨_, Cert.KernelIdeal.Through.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).2.1, (hagree c).2.2.1, (hagree c).2.2.2,
    Cert.Step.mulf_broadcast_eq_scaleRows, Cert.Step.subf_mulf_half_eq_damp]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
